-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32768x3 : Shape := ⟨3, ![16, 32768, 3]⟩
abbrev S85x3 : Shape := ⟨2, ![85, 3]⟩
abbrev S85 : Shape := ⟨1, ![85]⟩
abbrev S_ : Shape := ⟨0, ![]⟩

class Facts : Prop where
  bcast_S_S16x32768x3 : S_.BroadcastsInDim S16x32768x3 (![] : Fin 0 → Fin S16x32768x3.rank)
  reducesTo_S16x32768x3_S_d0_1_2 : S16x32768x3.ReducesTo [0, 1, 2] S_
  h_S_ : 0 < S_.numel
  bcast_S_S85x3 : S_.BroadcastsInDim S85x3 (![] : Fin 0 → Fin S85x3.rank)
  reducesTo_S85x3_S_d0_1 : S85x3.ReducesTo [0, 1] S_
  bcast_S_S85 : S_.BroadcastsInDim S85 (![] : Fin 0 → Fin S85.rank)
  reducesTo_S85_S_d0 : S85.ReducesTo [0] S_

variable [Facts]

def fn_part1 {F : FTy → Type} [FloatOps F] (main_v13 : IVec S_ 1) (main_v15 : IVec S85 1) (main_c_5 : IVec S_ 1) : IVec S_ 1 :=
  let main_v16 : IVec S_ 1 := (fun x v => Host.reduce IntOp.andi x v reducesTo_S85_S_d0 h_S_) main_v15 main_c_5
  let main_v17 : IVec S_ 1 := andi main_v13 main_v16
  main_v17

def fn {F : FTy → Type} [FloatOps F] (main_arg0 : FVec F S16x32768x3 .f32) (main_arg1 : FVec F S85x3 .f32) (main_arg2 : FVec F S85 .f32) : IVec S_ 1 :=
  let main_v0 : FVec F S16x32768x3 .f32 := Host.absf main_arg0
  let main_cst : FVec F S_ .f32 := constant S_ .f32 0x7F800000#32
  let main_v1 : FVec F S16x32768x3 .f32 := broadcastInDim S16x32768x3 ![] bcast_S_S16x32768x3 main_cst
  let main_v2 : IVec S16x32768x3 1 := cmpf .olt main_v0 main_v1
  let main_c : IVec S_ 1 := constantI S_ 1 1#1
  let main_v3 : IVec S_ 1 := (fun x v => Host.reduce IntOp.andi x v reducesTo_S16x32768x3_S_d0_1_2 h_S_) main_v2 main_c
  let main_v4 : FVec F S85x3 .f32 := Host.absf main_arg1
  let main_cst_0 : FVec F S_ .f32 := constant S_ .f32 0x7F800000#32
  let main_v5 : FVec F S85x3 .f32 := broadcastInDim S85x3 ![] bcast_S_S85x3 main_cst_0
  let main_v6 : IVec S85x3 1 := cmpf .olt main_v4 main_v5
  let main_c_1 : IVec S_ 1 := constantI S_ 1 1#1
  let main_v7 : IVec S_ 1 := (fun x v => Host.reduce IntOp.andi x v reducesTo_S85x3_S_d0_1 h_S_) main_v6 main_c_1
  let main_v8 : IVec S_ 1 := andi main_v3 main_v7
  let main_v9 : FVec F S85 .f32 := Host.absf main_arg2
  let main_cst_2 : FVec F S_ .f32 := constant S_ .f32 0x7F800000#32
  let main_v10 : FVec F S85 .f32 := broadcastInDim S85 ![] bcast_S_S85 main_cst_2
  let main_v11 : IVec S85 1 := cmpf .olt main_v9 main_v10
  let main_c_3 : IVec S_ 1 := constantI S_ 1 1#1
  let main_v12 : IVec S_ 1 := (fun x v => Host.reduce IntOp.andi x v reducesTo_S85_S_d0 h_S_) main_v11 main_c_3
  let main_v13 : IVec S_ 1 := andi main_v8 main_v12
  let main_cst_4 : FVec F S_ .f32 := constant S_ .f32 0x00000000#32
  let main_v14 : FVec F S85 .f32 := broadcastInDim S85 ![] bcast_S_S85 main_cst_4
  let main_v15 : IVec S85 1 := cmpf .une main_arg2 main_v14
  let main_c_5 : IVec S_ 1 := constantI S_ 1 1#1
  fn_part1 (F := F) main_v13 main_v15 main_c_5
-- ==== Kernel.lean ====
abbrev S16x32768x3 : Shape := ⟨3, ![16, 32768, 3]⟩
abbrev S85x3 : Shape := ⟨2, ![85, 3]⟩
abbrev S85 : Shape := ⟨1, ![85]⟩
abbrev S3x85 : Shape := ⟨2, ![3, 85]⟩
abbrev S1x85 : Shape := ⟨2, ![1, 85]⟩
abbrev S16x32768x85 : Shape := ⟨3, ![16, 32768, 85]⟩
abbrev S1x8192x3 : Shape := ⟨3, ![1, 8192, 3]⟩
abbrev S1x8192x85 : Shape := ⟨3, ![1, 8192, 85]⟩
abbrev S8192x3 : Shape := ⟨2, ![8192, 3]⟩
abbrev S8192x85 : Shape := ⟨2, ![8192, 85]⟩
abbrev S8192x1 : Shape := ⟨2, ![8192, 1]⟩

abbrev nBuf : Space → Nat
  | .hbm => 6
  | .vmem => 6
  | .smem => 0
  | _ => 0

abbrev bufTy : (tb : Table) → Fin (tcTables nBuf tb) → BufTy
  | .hbm, ⟨0, _⟩ => ⟨S16x32768x3, .f32⟩
  | .hbm, ⟨1, _⟩ => ⟨S85x3, .f32⟩
  | .hbm, ⟨2, _⟩ => ⟨S85, .f32⟩
  | .hbm, ⟨3, _⟩ => ⟨S3x85, .f32⟩
  | .hbm, ⟨4, _⟩ => ⟨S1x85, .f32⟩
  | .hbm, ⟨5, _⟩ => ⟨S16x32768x85, .f32⟩
  | .local _ .vmem, ⟨0, _⟩ => ⟨S1x8192x3, .f32⟩
  | .local _ .vmem, ⟨1, _⟩ => ⟨S1x8192x3, .f32⟩
  | .local _ .vmem, ⟨2, _⟩ => ⟨S3x85, .f32⟩
  | .local _ .vmem, ⟨3, _⟩ => ⟨S1x85, .f32⟩
  | .local _ .vmem, ⟨4, _⟩ => ⟨S1x8192x85, .f32⟩
  | .local _ .vmem, ⟨5, _⟩ => ⟨S1x8192x85, .f32⟩
  | _, _ => ⟨S16x32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x85 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x85 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8192x85 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S85x3_S3x85_1_0 : S85x3.Transposes [1, 0] S3x85
  shapeCasts_S85_S1x85 : S85.ShapeCasts S1x85
  inb_S1x8192x3_S1x8192x3_0_0_0 : ∀ a, (![0, 0, 0] : Fin 3 → Nat) a + S1x8192x3.size a ≤ S1x8192x3.size a
  h_S1x8192x3 : 0 < S1x8192x3.numel
  shapeCasts_S1x8192x3_S8192x3 : S1x8192x3.ShapeCasts S8192x3
  inb_S1x85_S1x85_0_0 : ∀ a, (![0, 0] : Fin 2 → Nat) a + S1x85.size a ≤ S1x85.size a
  h_S1x85 : 0 < S1x85.numel
  shapeCasts_S1x85_S85 : S1x85.ShapeCasts S85
  inb_S3x85_S1x85_0_0 : ∀ a, (![0, 0] : Fin 2 → Nat) a + S1x85.size a ≤ S3x85.size a
  slices_S8192x3_o0_0_S8192x1 : S8192x3.Slices ![0, 0] S8192x1
  broadcasts_S8192x1_S8192x85 : S8192x1.Broadcasts S8192x85
  broadcasts_S1x85_S8192x85 : S1x85.Broadcasts S8192x85
  inb_S3x85_S1x85_1_0 : ∀ a, (![1, 0] : Fin 2 → Nat) a + S1x85.size a ≤ S3x85.size a
  slices_S8192x3_o0_1_S8192x1 : S8192x3.Slices ![0, 1] S8192x1
  inb_S3x85_S1x85_2_0 : ∀ a, (![2, 0] : Fin 2 → Nat) a + S1x85.size a ≤ S3x85.size a
  slices_S8192x3_o0_2_S8192x1 : S8192x3.Slices ![0, 2] S8192x1
  inb_S1x8192x85_S1x8192x85_0_0_0 : ∀ a, (![0, 0, 0] : Fin 3 → Nat) a + S1x8192x85.size a ≤ S1x8192x85.size a
  h_S1x8192x85 : 0 < S1x8192x85.numel
  shapeCasts_S1x8192x85_S8192x85 : S1x8192x85.ShapeCasts S8192x85
  shapeCasts_S8192x85_S1x8192x85 : S8192x85.ShapeCasts S1x8192x85
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x3.size a ≤ S16x32768x3.size a
  hwx0_0 : ∀ i : grid0.Coords, EltTy.bits .f32 = 32 ∨ (Rect.block (s := S16x32768x3) S1x8192x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x85.size a ≤ S3x85.size a
  hwx0_1 : ∀ i : grid0.Coords, EltTy.bits .f32 = 32 ∨ (Rect.block (s := S3x85) S3x85.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x85.size a ≤ S1x85.size a
  hwx0_2 : ∀ i : grid0.Coords, EltTy.bits .f32 = 32 ∨ (Rect.block (s := S1x85) S1x85.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192x85.size a ≤ S16x32768x85.size a
  hwx0_3 : ∀ i : grid0.Coords, EltTy.bits .f32 = 32 ∨ (Rect.block (s := S16x32768x85) S1x8192x85.size (cc0_transform_3 i) (hinb0_3 i)).WholeWords (EltTy.packing .f32)

variable [Facts₀]

abbrev win0_0 : Pipeline.Window sig grid0 :=
  Pipeline.Window.ofSpec (Memref.whole main_arg0) S1x8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x85.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x85.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x8192x85.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x32768x3 : Shape := ⟨3, ![16, 32768, 3]⟩
abbrev S85x3 : Shape := ⟨2, ![85, 3]⟩
abbrev S85 : Shape := ⟨1, ![85]⟩
abbrev S16x32768x1x3 : Shape := ⟨4, ![16, 32768, 1, 3]⟩
abbrev S1x1x85x3 : Shape := ⟨4, ![1, 1, 85, 3]⟩
abbrev S16x32768x85x3 : Shape := ⟨4, ![16, 32768, 85, 3]⟩
abbrev S_ : Shape := ⟨0, ![]⟩
abbrev S16x32768x85 : Shape := ⟨3, ![16, 32768, 85]⟩
abbrev S1x1x85 : Shape := ⟨3, ![1, 1, 85]⟩

abbrev nBuf : Space → Nat
  | .hbm => 17
  | .vmem => 0
  | .smem => 0
  | _ => 0

abbrev bufTy : (tb : Table) → Fin (tcTables nBuf tb) → BufTy
  | .hbm, ⟨0, _⟩ => ⟨S16x32768x3, .f32⟩
  | .hbm, ⟨1, _⟩ => ⟨S85x3, .f32⟩
  | .hbm, ⟨2, _⟩ => ⟨S85, .f32⟩
  | .hbm, ⟨3, _⟩ => ⟨S16x32768x1x3, .f32⟩
  | .hbm, ⟨4, _⟩ => ⟨S1x1x85x3, .f32⟩
  | .hbm, ⟨5, _⟩ => ⟨S16x32768x85x3, .f32⟩
  | .hbm, ⟨6, _⟩ => ⟨S16x32768x85x3, .f32⟩
  | .hbm, ⟨7, _⟩ => ⟨S16x32768x85x3, .f32⟩
  | .hbm, ⟨8, _⟩ => ⟨S16x32768x85x3, .f32⟩
  | .hbm, ⟨9, _⟩ => ⟨S_, .f32⟩
  | .hbm, ⟨10, _⟩ => ⟨S16x32768x85, .f32⟩
  | .hbm, ⟨11, _⟩ => ⟨S85, .f32⟩
  | .hbm, ⟨12, _⟩ => ⟨S16x32768x85, .f32⟩
  | .hbm, ⟨13, _⟩ => ⟨S1x1x85, .f32⟩
  | .hbm, ⟨14, _⟩ => ⟨S16x32768x85, .f32⟩
  | .hbm, ⟨15, _⟩ => ⟨S16x32768x85, .f32⟩
  | .hbm, ⟨16, _⟩ => ⟨S16x32768x85, .f32⟩
  | _, _ => ⟨S16x32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  bcast_S16x32768x3_S16x32768x1x3_0_1_3 : S16x32768x3.BroadcastsInDim S16x32768x1x3 (![0, 1, 3] : Fin 3 → Fin S16x32768x1x3.rank)
  bcast_S85x3_S1x1x85x3_2_3 : S85x3.BroadcastsInDim S1x1x85x3 (![2, 3] : Fin 2 → Fin S1x1x85x3.rank)
  bcast_S16x32768x1x3_S16x32768x85x3_0_1_2_3 : S16x32768x1x3.BroadcastsInDim S16x32768x85x3 (![0, 1, 2, 3] : Fin 4 → Fin S16x32768x85x3.rank)
  bcast_S1x1x85x3_S16x32768x85x3_0_1_2_3 : S1x1x85x3.BroadcastsInDim S16x32768x85x3 (![0, 1, 2, 3] : Fin 4 → Fin S16x32768x85x3.rank)
  reducesTo_S16x32768x85x3_S16x32768x85_d3 : S16x32768x85x3.ReducesTo [3] S16x32768x85
  h_S_ : 0 < S_.numel
  bcast_S85_S1x1x85_2 : S85.BroadcastsInDim S1x1x85 (![2] : Fin 1 → Fin S1x1x85.rank)
  bcast_S1x1x85_S16x32768x85_0_1_2 : S1x1x85.BroadcastsInDim S16x32768x85 (![0, 1, 2] : Fin 3 → Fin S16x32768x85.rank)

variable [Facts₀]

class Facts : Prop extends Facts₀ where

variable [Facts]
-- ==== Proof.Gaussian.lean ====
/-
  Gaussian radial-basis features, on the extended reals.

  For points `X[b, r, ·] ∈ ℝ³`, centres `Q[k, ·] ∈ ℝ³` and widths `ω[k]`, the feature at `(b, r, k)` is
  `exp (-‖X[b, r] - Q[k]‖² / ω[k]²)`. Two arrangements of that number are stated here, index by index:

  * `scaled`: the squared distance accumulated coordinate by coordinate from zero, then MULTIPLIED by the
    coefficient `(-1) / ω[k]²`;
  * `quotient`: zero plus the sum of the three squared differences, negated, then DIVIDED by `ω[k]²`.

  On the extended reals, division by a nonzero `w` is multiplication by `w⁻¹`, and
  `a * ((-1) * w⁻¹) = (-a) * w⁻¹` for EVERY extended real `a` (negation commutes with products there), so the two
  agree wherever `ω[k] ≠ 0` — no finiteness is needed. At `ω[k] = 0` they differ when the distance is zero
  (`0 * (-1 / 0) = 0 * ⊥ = 0` against `0 / 0 = ⊥`), which is why the law carries the hypothesis.
-/
import Idealize.ShloMosaic.PureOps.Ideal
import Idealize.ShloMosaic.PureOps.IdealRules
import Idealize.ShloMosaic.PureOps.Ideal.Laws
import Idealize.ShloMosaic.Lib.ValueIdx

noncomputable section

open scoped BigOperators

namespace Cert.Gaussian

open Idealize.ShloMosaic Idealize.ShloMosaic.ValueIdx

/-- The points: 16 batches of 32768 points of ℝ³. -/
abbrev Pts : Type := (⟨3, ![16, 32768, 3]⟩ : Shape).Idx → EReal
/-- The centres: 85 points of ℝ³. -/
abbrev Ctr : Type := (⟨2, ![85, 3]⟩ : Shape).Idx → EReal
/-- The widths: one per centre. -/
abbrev Wid : Type := (⟨1, ![85]⟩ : Shape).Idx → EReal
/-- The features: one per (batch, point, centre). -/
abbrev Feat : Type := (⟨3, ![16, 32768, 85]⟩ : Shape).Idx → EReal

/-- The square of the difference of point `(b, r)` and centre `k` along coordinate `d`. -/
def sqDiff (X : Pts) (Q : Ctr) (b : Fin 16) (r : Fin 32768) (k : Fin 85) (d : Fin 3) : EReal :=
  (X (ix3 b r d) - Q (ix2 k d)) * (X (ix3 b r d) - Q (ix2 k d))

/-- The squared distance accumulated from the zero word, coordinate by coordinate, times `(-1) / ω²`, exponentiated. -/
def scaled (X : Pts) (Q : Ctr) (W : Wid) : Feat := fun i =>
  Ideal.exp ((((Ideal.ofBits .f32 0x00000000#32 + sqDiff X Q (i 0) (i 1) (i 2) 0) + sqDiff X Q (i 0) (i 1) (i 2) 1)
      + sqDiff X Q (i 0) (i 1) (i 2) 2)
    * Ideal.div (Ideal.ofBits .f32 0xBF800000#32) (W (ix1 (i 2)) * W (ix1 (i 2))))

/-- Minus (the zero word plus the sum of the squared differences), divided by `ω²`, exponentiated. -/
def quotient (X : Pts) (Q : Ctr) (W : Wid) : Feat := fun i =>
  Ideal.exp (Ideal.div (-(Ideal.ofBits .f32 0x00000000#32 + ∑ d : Fin 3, sqDiff X Q (i 0) (i 1) (i 2) d))
    (W (ix1 (i 2)) * W (ix1 (i 2))))

/-- The word of `-1.0` denotes `-1`. -/
theorem neg_one_word : Ideal.ofBits .f32 0xBF800000#32 = (-1 : EReal) :=
  IdealRules.sign_bit.ideal_negOnePat .f32

/-- Scaling by `(-1) / w` is dividing the negation by `w`, for a nonzero divisor and ANY extended real `a`. -/
theorem mul_neg_one_div (a w : EReal) (hw : w ≠ 0) :
    a * Ideal.div (-1) w = Ideal.div (-a) w := by
  unfold Ideal.div
  rw [if_neg hw, if_neg hw, neg_mul, one_mul, mul_neg, neg_mul]

/-- The two arrangements agree wherever every width is nonzero. -/
theorem scaled_eq_quotient (X : Pts) (Q : Ctr) (W : Wid) (hW : ∀ k : Fin 85, W (ix1 k) ≠ 0) :
    scaled X Q W = quotient X Q W := by
  funext i
  unfold scaled quotient
  rw [neg_one_word, mul_neg_one_div _ _ (mul_ne_zero (hW (i 2)) (hW (i 2))), Fin.sum_univ_three]
  simp only [add_assoc]

end Cert.Gaussian

end
-- ==== Proof.WidthNonzero.lean ====
/-
  The precondition, read: every width is nonzero.

  The precondition is one bit: the conjunction of four all-reductions over the inputs — three finiteness tests
  `|x| < +∞` and the test `ω ≠ 0` on the widths. If the bit is one, so is each conjunct, and an all-reduction by
  `and` that came out one met a one at every index; a one from the comparison `ω[k] ≠ 0` on the linear order of the
  extended reals says exactly that `ω[k]` is not zero.
-/
import proofs.«150158_j38989713113611_2_alg».proof.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal
import Idealize.ShloMosaic.PureOps.Ideal.Laws

noncomputable section

namespace Cert.Gaussian

open Idealize.ShloMosaic Idealize.ShloMosaic.ValueIdx

variable [Cert.Pre_finite_inputs.Facts]

/-- Under the precondition no width is zero: the last conjunct of the precondition's bit is the all-reduction of the
    comparisons `ω[k] ≠ 0`. -/
theorem width_ne_zero (x0 : FVec Ideal Cert.Pre_finite_inputs.S16x32768x3 .f32)
    (x1 : FVec Ideal Cert.Pre_finite_inputs.S85x3 .f32) (x2 : FVec Ideal Cert.Pre_finite_inputs.S85 .f32)
    (h : Cert.Pre_finite_inputs.fn (F := Ideal) x0 x1 x2 = fun _ => 1#1) (k : Fin 85) : x2 (ix1 k) ≠ 0 := by
  haveI : Subsingleton Cert.Pre_finite_inputs.S_.Idx := ⟨fun a b => funext fun d => d.elim0⟩
  -- the precondition's bit, at the one index of a scalar
  have h0 := congrFun h ix0
  dsimp only [Cert.Pre_finite_inputs.fn, Cert.Pre_finite_inputs.fn_part1] at h0
  -- its last conjunct: the all-reduction of `ω ≠ 0`, which therefore holds at `k`
  obtain ⟨-, h4⟩ := IntOp.andi_eq_one.1 h0
  have h5 := Host.reduce_andi_all _ _ _ _ _ h4 (ix1 k)
  -- the zero the widths are compared with is the splat of the zero word
  have hb : (broadcastInDim Cert.Pre_finite_inputs.S85 ![] Cert.Pre_finite_inputs.Facts.bcast_S_S85
      (constant (F := Ideal) Cert.Pre_finite_inputs.S_ .f32 0x00000000#32)) (ix1 k) = (0 : EReal) :=
    (broadcastInDim_apply _ _ _ _ ix0 (fun a => a.elim0)).trans Ideal.ofBits_zero_f32
  intro hx
  have h6 : Ideal.cmp .une (x2 (ix1 k)) ((broadcastInDim Cert.Pre_finite_inputs.S85 ![]
      Cert.Pre_finite_inputs.Facts.bcast_S_S85
      (constant (F := Ideal) Cert.Pre_finite_inputs.S_ .f32 0x00000000#32)) (ix1 k)) = 1#1 := h5
  rw [hb, hx] at h6
  simp [Ideal.cmp] at h6

end Cert.Gaussian

end
-- ==== Proof.KernelFeatures.lean ====
/-
  The kernel's result array: the `scaled` arrangement of the Gaussian features.

  The kernel runs over a 16 × 4 grid. At point `(bi, ri)` it is handed rows `ri * 8192 … ri * 8192 + 8191` of batch `bi`
  of the points (a [1, 8192, 3] block), the WHOLE transposed centres ([3, 85]: entry `(d, k)` is coordinate `d` of centre
  `k`) and the WHOLE width row ([1, 85]), and writes the [1, 8192, 85] block of the output at the same batch and rows.
  In the block, element `(r, k)` is

      exp ((((0 + (x[r,0] - qT[0,k])²) + (x[r,1] - qT[1,k])²) + (x[r,2] - qT[2,k])²) * ((-1) / (ω[k] * ω[k])))

  (the generated value leg reads the body's slices, casts and broadcasts down to this one index-by-index function of the
  loads). The transposed centres and the width row are written by the two host operations before the kernel starts: a
  transpose of the centres and a reshape of the widths to one row. Read back through them and through the blocks'
  positions, what point `(bi, ri)` writes is the block of `scaled X Q ω` at that position; the 64 blocks tile the output,
  so the output array IS `scaled X Q ω`.
-/
import proofs.«150158_j38989713113611_2_alg».proof.Proof.Gen.KernelIdeal.Value
import proofs.«150158_j38989713113611_2_alg».proof.Proof.Gaussian
import Idealize.ShloMosaic.Lib.StableHlo.Run

noncomputable section

namespace Cert.Gaussian.Kernel

open Idealize.ShloMosaic Idealize.ShloMosaic.ValueIdx Idealize.ShloMosaic.TcCoe Idealize.SL.Sem
open Cert.KernelIdeal Cert.KernelIdeal.Gen

/-! ## One block, index by index -/

/-- Block element `(p, r, k)` reads the point's coordinate 0 at row `r` of the point block. -/
theorem point_read0 (p : Fin 1) (r : Fin 8192) (k : Fin 85) :
    r0_0.idx (Value.ix3_0 (ix3 p r k)) = ix3 (0 : Fin 1) r (0 : Fin 3) :=
  funext fun a => Fin.ext (by
    match a with
    | ⟨0, _⟩ => rfl
    | ⟨1, _⟩ => show 0 + 1 * r.val = r.val; omega
    | ⟨2, _⟩ => rfl)

/-- Block element `(p, r, k)` reads row 0 of the transposed centres at column `k`. -/
theorem centre_read0 (p : Fin 1) (r : Fin 8192) (k : Fin 85) :
    r0_2.idx (Value.ix3_1 (ix3 p r k)) = ix2 (0 : Fin 3) k :=
  funext fun a => Fin.ext (by
    match a with
    | ⟨0, _⟩ => rfl
    | ⟨1, _⟩ => show 0 + 1 * k.val = k.val; omega)

/-- Block element `(p, r, k)` reads the point's coordinate 1 at row `r` of the point block. -/
theorem point_read1 (p : Fin 1) (r : Fin 8192) (k : Fin 85) :
    r0_0.idx (Value.ix3_4 (ix3 p r k)) = ix3 (0 : Fin 1) r (1 : Fin 3) :=
  funext fun a => Fin.ext (by
    match a with
    | ⟨0, _⟩ => rfl
    | ⟨1, _⟩ => show 0 + 1 * r.val = r.val; omega
    | ⟨2, _⟩ => rfl)

/-- Block element `(p, r, k)` reads row 1 of the transposed centres at column `k`. -/
theorem centre_read1 (p : Fin 1) (r : Fin 8192) (k : Fin 85) :
    r0_3.idx (Value.ix3_5 (ix3 p r k)) = ix2 (1 : Fin 3) k :=
  funext fun a => Fin.ext (by
    match a with
    | ⟨0, _⟩ => rfl
    | ⟨1, _⟩ => show 0 + 1 * k.val = k.val; omega)

/-- Block element `(p, r, k)` reads the point's coordinate 2 at row `r` of the point block. -/
theorem point_read2 (p : Fin 1) (r : Fin 8192) (k : Fin 85) :
    r0_0.idx (Value.ix3_8 (ix3 p r k)) = ix3 (0 : Fin 1) r (2 : Fin 3) :=
  funext fun a => Fin.ext (by
    match a with
    | ⟨0, _⟩ => rfl
    | ⟨1, _⟩ => show 0 + 1 * r.val = r.val; omega
    | ⟨2, _⟩ => rfl)

/-- Block element `(p, r, k)` reads row 2 of the transposed centres at column `k`. -/
theorem centre_read2 (p : Fin 1) (r : Fin 8192) (k : Fin 85) :
    r0_4.idx (Value.ix3_9 (ix3 p r k)) = ix2 (2 : Fin 3) k :=
  funext fun a => Fin.ext (by
    match a with
    | ⟨0, _⟩ => rfl
    | ⟨1, _⟩ => show 0 + 1 * k.val = k.val; omega)

/-- Block element `(p, r, k)` reads the width row at column `k`. -/
theorem width_read (p : Fin 1) (r : Fin 8192) (k : Fin 85) :
    r0_1.idx (Value.ix3_12 (ix3 p r k)) = ix2 (0 : Fin 1) k :=
  funext fun a => Fin.ext (by
    match a with
    | ⟨0, _⟩ => rfl
    | ⟨1, _⟩ => show 0 + 1 * k.val = k.val; omega)

/-- What one grid point leaves in its output block, at block index `(p, r, k)`: the squared distance of row `r` of the
    point block to column `k` of the transposed centres, accumulated coordinate by coordinate from the zero word,
    times `(-1) / ω²` of column `k` of the width row, exponentiated. -/
theorem block_apply (x0 : Vec Ideal S1x8192x3 .f32) (x1 : Vec Ideal S3x85 .f32) (x2 : Vec Ideal S1x85 .f32)
    (p : Fin 1) (r : Fin 8192) (k : Fin 85) :
    out0_3 x0 x1 x2 (ix3 p r k) =
      Ideal.exp ((((Ideal.ofBits .f32 0x00000000#32
          + (x0 (ix3 (0 : Fin 1) r (0 : Fin 3)) - x1 (ix2 (0 : Fin 3) k)) * (x0 (ix3 (0 : Fin 1) r (0 : Fin 3)) - x1 (ix2 (0 : Fin 3) k)))
          + (x0 (ix3 (0 : Fin 1) r (1 : Fin 3)) - x1 (ix2 (1 : Fin 3) k)) * (x0 (ix3 (0 : Fin 1) r (1 : Fin 3)) - x1 (ix2 (1 : Fin 3) k)))
          + (x0 (ix3 (0 : Fin 1) r (2 : Fin 3)) - x1 (ix2 (2 : Fin 3) k)) * (x0 (ix3 (0 : Fin 1) r (2 : Fin 3)) - x1 (ix2 (2 : Fin 3) k)))
        * Ideal.div (Ideal.ofBits .f32 0xBF800000#32) (x2 (ix2 (0 : Fin 1) k) * x2 (ix2 (0 : Fin 1) k))) := by
  unfold out0_3
  rw [Value.canon3_eq]
  dsimp only [Value.E3, View.ld]
  rw [point_read0, centre_read0, point_read1, centre_read1, point_read2, centre_read2, width_read]
  rfl

variable (m : (ℓ : Loc nD τ sig) → Buf (Elt Ideal) ℓ) (ρ : Dev nD → PrngReg)

/-! ## The arrays the kernel is started on -/

/-- When the kernel starts, the transposed-centres array is the transpose of the centres as launched. -/
theorem centres_entry (c : Dev nD) : (V m c main_v0 : S3x85.Idx → EReal)
    = transpose S3x85 [1, 0] (m ((c : Thread nD τ).loc main_arg1)) Facts₀.transposes_S85x3_S3x85_1_0 := by
  dsimp only [Gen.V, Gen.hostOps0]; after_results

/-- When the kernel starts, the one-row width array is the widths as launched, reshaped. -/
theorem widths_entry (c : Dev nD) : (V m c main_v1 : S1x85.Idx → EReal)
    = shapeCast S1x85 (m ((c : Thread nD τ).loc main_arg2)) Facts₀.shapeCasts_S85_S1x85 := by
  dsimp only [Gen.V, Gen.hostOps0]; after_results; rfl

/-! ## Where the blocks sit -/

/-- The printed block positions, decided over the 64 grid points: the point block moves with the output block along batch
    and rows, every other block position is zero, and the output's positions stay in the 16 × 4 range. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 15 ∧ win0_3.index t (1 : Fin 3) ≤ 3 :=
  (by decide +kernel : ∀ t : Fin grid0.N, _)

/-- Every one of the 16 × 4 block positions is some grid point's. -/
theorem idx_onto : ∀ (q0 : Fin 16) (q1 : Fin 4), ∃ t : Fin cfg0.N, win0_3.index t = ![q0.val, q1.val, 0] :=
  (by decide +kernel : ∀ (q0 : Fin 16) (q1 : Fin 4), ∃ t : Fin grid0.N, win0_3.index t = ![q0.val, q1.val, 0])

/-! ## From blocks to the array -/

/-- WHAT POINT `t` WRITES BACK is block `t` of the `scaled` features of the three argument arrays. The output block at
    `(bi, ri)` holds rows `ri * 8192 …` of batch `bi`; the point block moves with it, and the transposed centres and the
    width row are the same whole arrays at every point. -/
theorem flushed_eq (c : Dev nD) (t : Fin cfg0.N) :
    (dats m 0 c).flushed 3 t = ((cfg0.win 3).blk t).view.read (Elt Ideal)
      (scaled (m ((c : Thread nD τ).loc main_arg0)) (m ((c : Thread nD τ).loc main_arg1)) (m ((c : Thread nD τ).loc main_arg2))) := by
  rw [Value.flushed3]
  funext j
  obtain ⟨p, r, k, rfl⟩ : ∃ (p : Fin 1) (r : Fin 8192) (k : Fin 85), j = ix3 p r k := ⟨j 0, j 1, j 2, eq_ix3 j⟩
  show out0_3 (iblk m c 0 t) (iblk m c 1 t) (iblk m c 2 t) (ix3 p r k) = scaled _ _ _ (((cfg0.win 3).blk t).view.emb (ix3 p r k))
  refine (block_apply (iblk m c 0 t) (iblk m c 1 t) (iblk m c 2 t) p r k).trans ?_
  obtain ⟨e0, e1, e2, e3, e4, e5, e6, e7, hb, hr⟩ := idx_facts t
  have hp : p.val < 1 := p.isLt
  have hr' : r.val < 8192 := r.isLt
  have hk' : k.val < 85 := k.isLt
  -- the array index under block index `(p, r, k)`
  have hemb : ((cfg0.win 3).blk t).view.emb (ix3 p r k)
      = ix3 (⟨win0_3.index t (0 : Fin 3), by omega⟩ : Fin 16) (⟨win0_3.index t (1 : Fin 3) * 8192 + r.val, by omega⟩ : Fin 32768) k := by
    funext a; apply Fin.ext
    match a with
    | ⟨0, _⟩ => show win0_3.index t (0 : Fin 3) * 1 + 1 * p.val = win0_3.index t (0 : Fin 3); omega
    | ⟨1, _⟩ => show win0_3.index t (1 : Fin 3) * 8192 + 1 * r.val = win0_3.index t (1 : Fin 3) * 8192 + r.val; omega
    | ⟨2, _⟩ => show win0_3.index t (2 : Fin 3) * 85 + 1 * k.val = k.val; omega
  rw [hemb]
  -- the point block is the points array read at the same batch and rows
  have hP : ∀ d : Fin 3, iblk m c 0 t (ix3 (0 : Fin 1) r d)
      = m ((c : Thread nD τ).loc main_arg0) (ix3 (⟨win0_3.index t (0 : Fin 3), by omega⟩ : Fin 16) (⟨win0_3.index t (1 : Fin 3) * 8192 + r.val, by omega⟩ : Fin 32768) d) := fun d => by
    have hd : d.val < 3 := d.isLt
    show V m c main_arg0 (((cfg0.win 0).blk t).view.emb (ix3 (0 : Fin 1) r d)) = _
    rw [V_main_arg0]
    refine congrArg _ (funext fun a => Fin.ext ?_)
    match a with
    | ⟨0, _⟩ => show win0_0.index t (0 : Fin 3) * 1 + 1 * 0 = win0_3.index t (0 : Fin 3); omega
    | ⟨1, _⟩ => show win0_0.index t (1 : Fin 3) * 8192 + 1 * r.val = win0_3.index t (1 : Fin 3) * 8192 + r.val; omega
    | ⟨2, _⟩ => show win0_0.index t (2 : Fin 3) * 3 + 1 * d.val = d.val; omega
  -- the centres block is the whole transposed centres array: entry `(d, k)` is centre `k`'s coordinate `d`
  have hQ : ∀ d : Fin 3, iblk m c 1 t (ix2 d k) = m ((c : Thread nD τ).loc main_arg1) (ix2 k d) := fun d => by
    have hd : d.val < 3 := d.isLt
    show V m c main_v0 (((cfg0.win 1).blk t).view.emb (ix2 d k)) = _
    have he : ((cfg0.win 1).blk t).view.emb (ix2 d k) = ix2 d k := by
      funext a; apply Fin.ext
      match a with
      | ⟨0, _⟩ => show win0_1.index t (0 : Fin 2) * 3 + 1 * d.val = d.val; omega
      | ⟨1, _⟩ => show win0_1.index t (1 : Fin 2) * 85 + 1 * k.val = k.val; omega
    rw [he]
    refine (congrFun (centres_entry m c) (ix2 d k)).trans (transpose_apply [1, 0] _ _ (ix2 d k) (ix2 k d) (fun b => ?_))
    match b with
    | ⟨0, _⟩ => rfl
    | ⟨1, _⟩ => rfl
  -- the width block is the whole one-row width array: entry `(0, k)` is width `k`
  have hW : iblk m c 2 t (ix2 (0 : Fin 1) k) = m ((c : Thread nD τ).loc main_arg2) (ix1 k) := by
    show V m c main_v1 (((cfg0.win 2).blk t).view.emb (ix2 (0 : Fin 1) k)) = _
    have he : ((cfg0.win 2).blk t).view.emb (ix2 (0 : Fin 1) k) = ix2 (0 : Fin 1) k := by
      funext a; apply Fin.ext
      match a with
      | ⟨0, _⟩ => show win0_2.index t (0 : Fin 2) * 1 + 1 * 0 = 0; omega
      | ⟨1, _⟩ => show win0_2.index t (1 : Fin 2) * 85 + 1 * k.val = k.val; omega
    rw [he]
    refine (congrFun (widths_entry m c) (ix2 (0 : Fin 1) k)).trans (shapeCast_apply _ _ (ix2 (0 : Fin 1) k) (ix1 k) ?_)
    rw [Shape.rowMajor_val_one, Shape.rowMajor_val_two]
    show k.val = 0 * 85 + k.val
    omega
  rw [hP 0, hP 1, hP 2, hQ 0, hQ 1, hQ 2, hW]
  rfl

/-- An index of the output array is in point `t`'s block iff each coordinate is in the block's range on its axis. -/
theorem mem_blk (t : Fin cfg0.N) (i : S16x32768x85.Idx) :
    i ∈ ((cfg0.win 3).blk t).view.set ↔ ∀ a : Fin 3, win0_3.index t a * S1x8192x85.size a ≤ (i a).val
      ∧ (i a).val < win0_3.index t a * S1x8192x85.size a + S1x8192x85.size a := by
  show i ∈ ((View.whole main_v2).slice (win0_3.rect t)).set ↔ _
  rw [View.set_slice_whole, Rect.mem_set_unit]
  exact Iff.rfl

/-- The 16 × 4 blocks tile the output: index `(b, r, k)` is in the block of the point with batch `b` and row block
    `r / 8192`. -/
theorem covered (i : S16x32768x85.Idx) :
    ∃ t : Fin cfg0.N, (cfg0.win 3).flush t = true ∧ i ∈ ((cfg0.win 3).blk t).view.set := by
  have hi0 : (i 0).val < 16 := (i 0).isLt
  have hi1 : (i 1).val < 32768 := (i 1).isLt
  have hi2 : (i 2).val < 85 := (i 2).isLt
  obtain ⟨t, ht⟩ := idx_onto ⟨(i 0).val, by omega⟩ ⟨(i 1).val / 8192, by omega⟩
  have q0 : win0_3.index t (0 : Fin 3) = (i 0).val := congrFun ht 0
  have q1 : win0_3.index t (1 : Fin 3) = (i 1).val / 8192 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8192 ≤ (i 1).val ∧ (i 1).val < win0_3.index t (1 : Fin 3) * 8192 + 8192; omega
  | ⟨2, _⟩ => show win0_3.index t (2 : Fin 3) * 85 ≤ (i 2).val ∧ (i 2).val < win0_3.index t (2 : Fin 3) * 85 + 85; omega

/-- THE OUTPUT ARRAY after the run is the `scaled` features of the three argument arrays. -/
theorem final (c : Dev nD) : (dats m 0 c).arrAt 3 cfg0.N
    = scaled (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: every weakly fair execution terminates with the result array at the `scaled` features of the
    arguments, the arguments unchanged. -/
theorem run : θ_run defs (onTc (τ := τ) (main (F := Ideal))) ⟨m, fun _ => 0, ρ⟩ fun r => ∀ c : Dev nD,
      r.2.mem ((c : Thread nD τ).loc main_v2)
        = scaled (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.Gaussian.Kernel

end
-- ==== Proof.ReferenceFeatures.lean ====
/-
  The reference's result, read index by index: it is the `quotient` arrangement of the Gaussian features.

  The reference broadcasts points and centres to a common [16, 32768, 85, 3] array, subtracts, squares, sums the
  last axis from the zero word, negates, divides by the squared width broadcast along the first two axes, and
  exponentiates. Read at an output index `(b, r, k)`, each broadcast only forgets coordinates: the point is read at
  `(b, r, d)`, the centre at `(k, d)`, the width at `k`; the sum runs over the coordinate `d`.
-/
import proofs.«150158_j38989713113611_2_alg».proof.Proof.Gen.ReferenceIdeal.Read
import proofs.«150158_j38989713113611_2_alg».proof.Proof.Gaussian

noncomputable section

open scoped BigOperators

namespace Cert.Gaussian

open Idealize.ShloMosaic Idealize.ShloMosaic.ValueIdx Cert.ReferenceIdeal Cert.ReferenceIdeal.Read

/-- The reference's last stage is `quotient` of its three arguments. -/
theorem reference_eq_quotient (x0 : FVec Ideal S16x32768x3 .f32) (x1 : FVec Ideal S85x3 .f32) (x2 : FVec Ideal S85 .f32) :
    val_main_v12 (F := Ideal) x0 x1 x2 = quotient x0 x1 x2 := by
  funext i
  -- where each broadcast reads its operand
  have ePt : ∀ d : Fin 3, idx_main_v0 (idx_main_v2 (idx_main_v6 i d)) = ix3 (i 0) (i 1) d := fun d =>
    funext fun a => Fin.ext (by match a with | ⟨0, _⟩ => rfl | ⟨1, _⟩ => rfl | ⟨2, _⟩ => rfl)
  have eCtr : ∀ d : Fin 3, idx_main_v1 (idx_main_v3 (idx_main_v6 i d)) = ix2 (i 2) d := fun d =>
    funext fun a => Fin.ext (by match a with | ⟨0, _⟩ => rfl | ⟨1, _⟩ => rfl)
  have eWid : idx_main_v9 (idx_main_v10 i) = ix1 (i 2) :=
    funext fun a => Fin.ext (by match a with | ⟨0, _⟩ => rfl)
  rw [val_main_v12_apply, val_main_v11_apply, val_main_v8_apply, val_main_v6_apply, val_main_v10_apply,
    val_main_v9_apply, val_main_v7_apply, val_main_cst_apply]
  simp only [val_main_v5_apply, val_main_v4_apply, val_main_v2_apply, val_main_v0_apply, val_main_v3_apply,
    val_main_v1_apply, ePt, eCtr, eWid, Ideal.hostUnary_exp_def, Ideal.hostDivf_def, Ideal.hostNegf_def,
    Ideal.negf_def, Ideal.mulf_def, Ideal.subf_def, Ideal.ofBits_def]
  rfl

end Cert.Gaussian

end
-- ==== Proof.lean ====
/-
  Gaussian radial-basis features `exp (-‖X[b, r] - Q[k]‖² / ω[k]²)`: a tiled kernel against its one-line reference.

  The kernel accumulates the squared distance coordinate by coordinate and MULTIPLIES it by the precomputed coefficient
  `(-1) / ω[k]²`; the reference sums the squared differences, negates and DIVIDES by `ω[k]²`. On the extended reals the two
  are one number wherever `ω[k] ≠ 0` (division by a nonzero `w` is the product with `w⁻¹`, and negation commutes with
  products, at the infinities too): `Gaussian.scaled_eq_quotient`. At `ω[k] = 0` with a point on its centre they are
  different numbers (`exp (0 * ⊥) = 1` against `exp (0 / 0) = exp ⊥ = 0`), so the precondition keeps the widths off zero,
  and that is all the proof uses of it (`Gaussian.width_ne_zero`).

  * `Proof/Gaussian.lean`: the two arrangements and the law between them.
  * `Proof/WidthNonzero.lean`: the precondition gives `ω[k] ≠ 0`.
  * `Proof/KernelFeatures.lean`: the kernel's result array is `scaled` of the arguments (blocks, their positions, the cover).
  * `Proof/ReferenceFeatures.lean`: the reference's result is `quotient` of the arguments.

  The kernel's idealization rewrote nothing, so `preserves` is `True`; the three frames are the generated runs.
-/
import proofs.«150158_j38989713113611_2_alg».proof.Defs
import proofs.«150158_j38989713113611_2_alg».proof.Proof.Gen.Kernel
import proofs.«150158_j38989713113611_2_alg».proof.Proof.Gen.Kernel.Skeleton
import proofs.«150158_j38989713113611_2_alg».proof.Proof.Gen.Kernel.Launch
import proofs.«150158_j38989713113611_2_alg».proof.Proof.Gen.Kernel.Points
import proofs.«150158_j38989713113611_2_alg».proof.Proof.Gen.Kernel.Frame
import proofs.«150158_j38989713113611_2_alg».proof.Proof.Gen.KernelIdeal
import proofs.«150158_j38989713113611_2_alg».proof.Proof.Gen.KernelIdeal.Skeleton
import proofs.«150158_j38989713113611_2_alg».proof.Proof.Gen.KernelIdeal.Launch
import proofs.«150158_j38989713113611_2_alg».proof.Proof.Gen.KernelIdeal.Points
import proofs.«150158_j38989713113611_2_alg».proof.Proof.Gen.KernelIdeal.Frame
import proofs.«150158_j38989713113611_2_alg».proof.Proof.Gen.ReferenceIdeal
import proofs.«150158_j38989713113611_2_alg».proof.Proof.Gen.Pre_finite_inputs
import proofs.«150158_j38989713113611_2_alg».proof.Proof.Gen.KernelIdeal.Value
import proofs.«150158_j38989713113611_2_alg».proof.Proof.Gen.ReferenceIdeal.Run
import proofs.«150158_j38989713113611_2_alg».proof.Proof.Gen.ReferenceIdeal.Read
import proofs.«150158_j38989713113611_2_alg».proof.Proof.Gaussian
import proofs.«150158_j38989713113611_2_alg».proof.Proof.WidthNonzero
import proofs.«150158_j38989713113611_2_alg».proof.Proof.KernelFeatures
import proofs.«150158_j38989713113611_2_alg».proof.Proof.ReferenceFeatures
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its generated run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten to read it on the extended reals. -/
theorem preserves : Cert.preserves_Kernel_KernelIdeal := trivial

/-- Both programs end with the same features: the kernel's array is `scaled` of the arguments, the reference's is
    `quotient` of the same arguments, and the two agree because the precondition keeps every width off zero. -/
theorem algebraic : Cert.algebraic_KernelIdeal_ReferenceIdeal := by
  intro m ρ m' ρ' hpre hagree
  refine ⟨_, Cert.Gaussian.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v12_eq,
    Cert.Gaussian.reference_eq_quotient]
  exact (Cert.Gaussian.scaled_eq_quotient _ _ _ fun k => Cert.Gaussian.width_ne_zero _ _ _ (hpre c) k).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
